-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x4096 32) (main_arg2 : FVec F S4096 .f32) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg3
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1024x4096 : Shape := ⟨2, ![1024, 4096]⟩
abbrev S256x4096 : Shape := ⟨2, ![256, 4096]⟩
abbrev S256 : Shape := ⟨1, ![256]⟩
abbrev S1024x256 : Shape := ⟨2, ![1024, 256]⟩
abbrev S256x1 : Shape := ⟨2, ![256, 1]⟩
abbrev S1x256 : Shape := ⟨2, ![1, 256]⟩

abbrev nBuf : Space → Nat
  | .hbm => 7
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S8192x4096, .f32⟩
  | .hbm, ⟨5, _⟩ => ⟨S8192x4096, .f32⟩
  | .hbm, ⟨6, _⟩ => ⟨S4x2048x4096, .f32⟩
  | .local _ .vmem, ⟨0, _⟩ => ⟨S1024x4096, .f32⟩
  | .local _ .vmem, ⟨1, _⟩ => ⟨S256x4096, .i32⟩
  | .local _ .vmem, ⟨2, _⟩ => ⟨S256x4096, .i32⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S256, .f32⟩
  | .local _ .vmem, ⟨7, _⟩ => ⟨S1024x256, .f32⟩
  | .local _ .vmem, ⟨8, _⟩ => ⟨S1024x256, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S4x2048x4096_S8192x4096 : S4x2048x4096.ShapeCasts S8192x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S256x4096_S256x4096_0_0 : ∀ a, (![0, 0] : Fin 2 → Nat) a + S256x4096.size a ≤ S256x4096.size a
  h_S256x4096 : 0 < S256x4096.numel
  inb_S256_S256_0 : ∀ a, (![0] : Fin 1 → Nat) a + S256.size a ≤ S256.size a
  h_S256 : 0 < S256.numel
  shapeCasts_S256_S256x1 : S256.ShapeCasts S256x1
  broadcasts_S256x1_S256x4096 : S256x1.Broadcasts S256x4096
  bitsLt_bf16_f32 : FTy.bits .bf16 < FTy.bits .f32
  shapeCasts_S256_S1x256 : S256.ShapeCasts S1x256
  broadcasts_S1x256_S1024x256 : S1x256.Broadcasts S1024x256
  inb_S1024x256_S1024x256_0_0 : ∀ a, (![0, 0] : Fin 2 → Nat) a + S1024x256.size a ≤ S1024x256.size a
  h_S1024x256 : 0 < S1024x256.numel
  shapeCasts_S8192x4096_S4x2048x4096 : S8192x4096.ShapeCasts S4x2048x4096
  dot_S1024x4096_S256x4096_S1024x256_1_1_0_0_n_n_wf : DotDims.WF S1024x4096 S256x4096 S1024x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S4096x4096.size a
  hwx0_1 : ∀ i : grid0.Coords, EltTy.bits .i32 = 32 ∨ (Rect.block (s := S4096x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S4096.size a
  hwx0_2 : ∀ i : grid0.Coords, EltTy.bits .f32 = 32 ∨ (Rect.block (s := S4096) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S4096.size a
  hwx0_3 : ∀ i : grid0.Coords, EltTy.bits .f32 = 32 ∨ (Rect.block (s := S4096) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x4096.size a
  hwx0_4 : ∀ i : grid0.Coords, EltTy.bits .f32 = 32 ∨ (Rect.block (s := S8192x4096) S1024x256.size (cc0_transform_4 i) (hinb0_4 i)).WholeWords (EltTy.packing .f32)

variable [Facts₀]

def dot_S1024x4096_S256x4096_S1024x256_1_1_0_0_n_n : DotDims S1024x4096 S256x4096 S1024x256 where
  lhsContracting := [1]
  rhsContracting := [1]
  lhsNonContracting := [0]
  rhsNonContracting := [0]
  lhsBatch := []
  rhsBatch := []
  wf := dot_S1024x4096_S256x4096_S1024x256_1_1_0_0_n_n_wf

abbrev win0_0 : Pipeline.Window sig grid0 :=
  Pipeline.Window.ofSpec (Memref.whole main_v0) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S4096x1 : Shape := ⟨2, ![4096, 1]⟩
abbrev S1x1x4096 : Shape := ⟨3, ![1, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096, .f32⟩
  | .hbm, ⟨3, _⟩ => ⟨S4096, .f32⟩
  | .hbm, ⟨4, _⟩ => ⟨S4096x4096, .f32⟩
  | .hbm, ⟨5, _⟩ => ⟨S4096x1, .f32⟩
  | .hbm, ⟨6, _⟩ => ⟨S4096x4096, .f32⟩
  | .hbm, ⟨7, _⟩ => ⟨S4096x4096, .f32⟩
  | .hbm, ⟨8, _⟩ => ⟨S4x2048x4096, .f32⟩
  | .hbm, ⟨9, _⟩ => ⟨S1x1x4096, .f32⟩
  | .hbm, ⟨10, _⟩ => ⟨S4x2048x4096, .f32⟩
  | .hbm, ⟨11, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.LibColumnCast.lean ====
/-
  A shape cast that appends a unit axis, read at an index.

  Casting a vector of length `a` to an `a × 1` column keeps row-major positions: position `i` of the vector is
  position `i * 1 + 0` of the column. So the column at `(i, u)` — `u` the only coordinate of the unit axis — is
  the vector at `i`. The same holds for casting a `1 × 1` matrix to a vector of length one.
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1]` array cast to `[1]` reads, at its one index, the operand at `(0, 0)`. -/
theorem shapeCast_11_1_apply (x : (⟨2, ![1, 1]⟩ : Shape).Idx → α) (h : (⟨2, ![1, 1]⟩ : Shape).ShapeCasts ⟨1, ![1]⟩)
    (u : Fin 1) : shapeCast ⟨1, ![1]⟩ x h (ix1 u) = x (ix2 (0 : Fin 1) (0 : Fin 1)) :=
  shapeCast_apply x h _ _ (by
    have hu : u.val = 0 := by omega
    rw [Shape.rowMajor_val_two, Shape.rowMajor_val_one]
    show 0 * 1 + 0 = u.val
    rw [hu])

end Cert.LibColumnCast
-- ==== Proof.LibColumnBroadcast.lean ====
/-
  One column broadcast over many.

  An `a × 1` column broadcast to `a × b` repeats, along each row, that row's one entry: the result at `(p, c)` is
  the column at `(p, 0)`, whatever the column coordinate `c`. (The companion of the row form, where a `1 × b` row
  is repeated down the rows.)
-/
import Idealize.ShloMosaic.Lib.Pipeline.Value
import Idealize.ShloMosaic.Lib.ValueIdx

namespace Cert.LibColumnBroadcast

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.Payload.lean ====
/-
  The kernel body's stored value, read at one position of the 1024 × 256 output block.

  The body loads a 1024 × 4096 block `a` of activations, a 256 × 4096 block `wq` of integer weight words and, for
  the same 256 output features, their scales and biases. It forms the dequantized weight block
  `w q k = float (wq q k) · scale q` (the scale column broadcast along each row), multiplies `a` by the transpose of
  `w` — contracting the 4096 input features of both — into a zero accumulator, and adds the bias row broadcast down
  the 1024 rows. On the extended reals the two narrowings to the 16-bit format are the identity and a zero
  accumulator adds nothing, so position `(p, q)` of the stored block is
      (∑ k, a p k · (float (wq q k) · scale q)) + bias q.
-/
import proofs.«143245_j9414568313144_1_alg».proof.Proof.Gen.KernelIdeal.Skeleton
import proofs.«143245_j9414568313144_1_alg».proof.Proof.LibColumnCast
import proofs.«143245_j9414568313144_1_alg».proof.Proof.LibColumnBroadcast
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Dense

open Cert.KernelIdeal Cert.KernelIdeal.Gen Idealize.ShloMosaic Idealize.ShloMosaic.ValueIdx

/-- The block product's dimensions: the second axis of each operand is contracted, the first axes are kept. -/
abbrev blockDot := dot_S1024x4096_S256x4096_S1024x256_1_1_0_0_n_n

/-! ## Which operand entries meet at an output position -/

/-- The left operand's row is the output's row. -/
theorem lhs_row (j : S1024x256.Idx) (k : blockDot.contr.Idx) : (blockDot.lhsIdx j k 0).val = (j 0).val := by
  unfold DotDims.lhsIdx
  rw [dif_neg (show ¬(0 : Fin S1024x4096.rank) ∈ blockDot.lhsBatch by decide),
    dif_pos (show (0 : Fin S1024x4096.rank) ∈ blockDot.lhsNonContracting by decide)]
  rfl

/-- The left operand's column is the contracted position. -/
theorem lhs_col (j : S1024x256.Idx) (k : blockDot.contr.Idx) : (blockDot.lhsIdx j k 1).val = (k ⟨0, by decide⟩).val :=
  blockDot.lhsIdx_val_of_single rfl j k

/-- The right operand's row is the output's column. -/
theorem rhs_row (j : S1024x256.Idx) (k : blockDot.contr.Idx) : (blockDot.rhsIdx j k 0).val = (j 1).val := by
  unfold DotDims.rhsIdx
  rw [dif_neg (show ¬(0 : Fin S256x4096.rank) ∈ blockDot.rhsBatch by decide),
    dif_pos (show (0 : Fin S256x4096.rank) ∈ blockDot.rhsNonContracting by decide)]
  rfl

/-- The right operand's column is the contracted position. -/
theorem rhs_col (j : S1024x256.Idx) (k : blockDot.contr.Idx) : (blockDot.rhsIdx j k 1).val = (k ⟨0, by decide⟩).val :=
  blockDot.rhsIdx_val_of_single rfl j k

/-- The block product into a zero accumulator, at `(p, q)`: row `p` of the left operand against row `q` of the
    right one, summed over the 4096 contracted positions. -/
theorem product_apply (a : FVec Ideal S1024x4096 .bf16) (b : FVec Ideal S256x4096 .bf16) (p : Fin 1024) (q : Fin 256) :
    matmul blockDot none a b (constant (F := Ideal) S1024x256 .f32 0x00000000#32) (ix2 p q)
      = ∑ k : Fin 4096, a (ix2 p k) * b (ix2 q k) := by
  simp only [matmul]
  rw [Ideal.matmul_constant_zero_apply, ← Equiv.sum_comp (contrEquiv1 blockDot 4096 rfl rfl).symm]
  refine Finset.sum_congr rfl fun k _ => ?_
  have hk := contrEquiv1_symm_val blockDot 4096 rfl rfl k
  have el : blockDot.lhsIdx (ix2 p q) ((contrEquiv1 blockDot 4096 rfl rfl).symm k) = ix2 p k :=
    funext fun ax => Fin.ext (by
      match ax with
      | ⟨0, _⟩ => exact lhs_row _ _
      | ⟨1, _⟩ => exact (lhs_col _ _).trans hk)
  have er : blockDot.rhsIdx (ix2 p q) ((contrEquiv1 blockDot 4096 rfl rfl).symm k) = ix2 q k :=
    funext fun ax => Fin.ext (by
      match ax with
      | ⟨0, _⟩ => exact rhs_row _ _
      | ⟨1, _⟩ => exact (rhs_col _ _).trans hk)
  rw [el, er]

/-! ## The stored value -/

/-- Position `(p, q)` of the value the body stores, from the four loaded blocks. -/
theorem payload_apply (a : Vec Ideal S1024x4096 .f32) (wq : Vec Ideal S256x4096 .i32) (scale bias : Vec Ideal S256 .f32)
    (p : Fin 1024) (q : Fin 256) :
    k0_pay1 (F := Ideal) a wq scale bias (ix2 p q)
      = (∑ k : Fin 4096, a (ix2 p k) * (FloatOps.sitofp (F := Ideal) .f32 (wq (ix2 q k)) * scale (ix1 q))) + bias (ix1 q) := by
  unfold k0_pay1
  rw [addf_apply, product_apply, broadcastTo_1b_ab_apply, shapeCast_a_1a_apply]
  refine congrArg (· + bias (ix1 q)) (Finset.sum_congr rfl fun k _ => ?_)
  rw [truncf_apply, truncf_apply, shapeCast_self, mulf_apply, sitofp_apply,
    LibColumnBroadcast.broadcastTo_a1_ab_apply, LibColumnCast.shapeCast_a_a1_apply]

end Cert.KernelIdeal.Dense

end
-- ==== Proof.Spec.lean ====
/-
  The function both programs compute, on the extended reals.

  The inputs are an activation array `x` of shape 4 × 2048 × 4096, a quantized weight `wq` of 4096 × 4096 integer
  words, and per output feature `o` a scale and a bias. The dequantized weight is `w o k = float (wq o k) · scale o`
  (the integer word read signed, exactly), and the result is the linear layer
      out b s o = (∑ k, x b s k · w o k) + bias o.
  The kernel works on the activations flattened to 8192 × 4096 rows, so the same function is also written over the
  flat row index: `rows X` at `(r, o)` is `(∑ k, X r k · w o k) + bias o`. The two forms agree when `X` is `x` read
  at row `r = 2048 · b + s`; that is proved where the two reshapes are read.
-/
import Idealize.ShloMosaic.PureOps.Ideal
import Idealize.ShloMosaic.Lib.ValueIdx

noncomputable section

namespace Cert.DenseSpec

open Idealize.ShloMosaic Idealize.ShloMosaic.ValueIdx

/-- The dequantized weight at output feature `o` and input feature `k`: the integer word as a real, times the
    feature's scale. -/
def weight (wq : (⟨2, ![4096, 4096]⟩ : Shape).Idx → BitVec 32) (scale : (⟨1, ![4096]⟩ : Shape).Idx → EReal)
    (o k : Fin 4096) : EReal :=
  FloatOps.sitofp (F := Ideal) .f32 (wq (ix2 o k)) * scale (ix1 o)

/-- The linear layer over flat rows: at `(r, o)`, row `r` of `X` against the dequantized weight's row `o`, plus
    the bias of `o`. -/
def rows (X : (⟨2, ![8192, 4096]⟩ : Shape).Idx → EReal) (wq : (⟨2, ![4096, 4096]⟩ : Shape).Idx → BitVec 32)
    (scale bias : (⟨1, ![4096]⟩ : Shape).Idx → EReal) : (⟨2, ![8192, 4096]⟩ : Shape).Idx → EReal :=
  fun j => (∑ k : Fin 4096, X (ix2 (j 0) k) * weight wq scale (j 1) k) + bias (ix1 (j 1))

/-- The linear layer over batch and sequence position: at `(b, s, o)`. -/
def out (x : (⟨3, ![4, 2048, 4096]⟩ : Shape).Idx → EReal) (wq : (⟨2, ![4096, 4096]⟩ : Shape).Idx → BitVec 32)
    (scale bias : (⟨1, ![4096]⟩ : Shape).Idx → EReal) : (⟨3, ![4, 2048, 4096]⟩ : Shape).Idx → EReal :=
  fun i => (∑ k : Fin 4096, x (ix3 (i 0) (i 1) k) * weight wq scale (i 2) k) + bias (ix1 (i 2))

end Cert.DenseSpec

end
-- ==== Proof.BlockValue.lean ====
/-
  One stored position is one position of the flat-row linear layer.

  Suppose row `p` of the loaded activation block is row `r` of an 8192 × 4096 array `X`, and row `q` of the loaded
  weight block, scale block and bias block are row `o` of the full weight `W`, scale and bias. Then position
  `(p, q)` of the value the body stores is the linear layer over flat rows at `(r, o)`: both are
  `(∑ k, X r k · (float (W o k) · scale o)) + bias o`, term by term.
-/
import proofs.«143245_j9414568313144_1_alg».proof.Proof.Payload
import proofs.«143245_j9414568313144_1_alg».proof.Proof.Spec

noncomputable section

namespace Cert.KernelIdeal.Dense

open Cert.KernelIdeal Cert.KernelIdeal.Gen Idealize.ShloMosaic Idealize.ShloMosaic.ValueIdx

theorem stored_eq_rows (X : (⟨2, ![8192, 4096]⟩ : Shape).Idx → EReal) (W : (⟨2, ![4096, 4096]⟩ : Shape).Idx → BitVec 32)
    (sc bi : (⟨1, ![4096]⟩ : Shape).Idx → EReal)
    (a : Vec Ideal S1024x4096 .f32) (wq : Vec Ideal S256x4096 .i32) (scale bias : Vec Ideal S256 .f32)
    (p : Fin 1024) (q : Fin 256) (r : Fin 8192) (o : Fin 4096)
    (ha : ∀ k : Fin 4096, a (ix2 p k) = X (ix2 r k))
    (hw : ∀ k : Fin 4096, wq (ix2 q k) = W (ix2 o k))
    (hs : scale (ix1 q) = sc (ix1 o)) (hb : bias (ix1 q) = bi (ix1 o)) :
    k0_pay1 (F := Ideal) a wq scale bias (ix2 p q) = DenseSpec.rows X W sc bi (ix2 r o) := by
  rw [payload_apply, hs, hb]
  show _ = (∑ k : Fin 4096, X (ix2 r k) * DenseSpec.weight W sc o k) + bi (ix1 o)
  unfold DenseSpec.weight
  refine congrArg (· + bi (ix1 o)) (Finset.sum_congr rfl fun k _ => ?_)
  rw [ha k, hw k]

end Cert.KernelIdeal.Dense

end
-- ==== Proof.Blocks.lean ====
/-
  The region's output array, after the run, is the flat-row linear layer of the arrays the region finds.

  The grid has 8 × 16 points. At point `(i, j)` the body is given rows `1024·i … 1024·i + 1023` of the flattened
  activations, rows `256·j … 256·j + 255` of the weight words, and the same 256 entries of the scale and the bias;
  it writes block `(i, j)` — 1024 × 256 — of the 8192 × 4096 output. So position `(p, q)` of the block written at
  that point is output position `(1024·i + p, 256·j + q)`, and by the stored value's formula it holds the linear
  layer there. Every output position lies in exactly the block of the point `(row / 1024, column / 256)`, so the
  blocks cover the array and the whole array is the linear layer.
-/
import proofs.«143245_j9414568313144_1_alg».proof.Proof.Gen.KernelIdeal.Frame
import proofs.«143245_j9414568313144_1_alg».proof.Proof.BlockValue
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Dense

open Cert.KernelIdeal Cert.KernelIdeal.Gen Idealize.ShloMosaic.ValueIdx

variable (m : (ℓ : Loc nD τ sig) → Buf (Elt Ideal) ℓ)

theorem origin2 : (![0, 0] : Fin 2 → Nat) = fun _ => 0 := funext fun a => by fin_cases a <;> rfl
theorem origin1 : (![0] : Fin 1 → Nat) = fun _ => 0 := funext fun a => by fin_cases a <;> rfl

/-! ## Which block each window has at a point -/

/-- At every point: the activation window is at the output's row block and column block 0; the weight window
    is at the output's column block (as its row block) and column block 0; the scale and bias windows are at the
    output's column block; and the output's block indices are below 8 and 16. -/
theorem block_indices : ∀ t : Fin cfg0.N,
    win0_0.index t (0 : Fin 2) = win0_4.index t (0 : Fin 2) ∧ win0_0.index t (1 : Fin 2) = 0
    ∧ win0_1.index t (0 : Fin 2) = win0_4.index t (1 : Fin 2) ∧ win0_1.index t (1 : Fin 2) = 0
    ∧ win0_2.index t (0 : Fin 1) = win0_4.index t (1 : Fin 2)
    ∧ win0_3.index t (0 : Fin 1) = win0_4.index t (1 : Fin 2)
    ∧ win0_4.index t (0 : Fin 2) ≤ 7 ∧ win0_4.index t (1 : Fin 2) ≤ 15 :=
  (by decide +kernel : ∀ t : Fin grid0.N, _)

/-- Every pair of an output row block and an output column block is some point's. -/
theorem block_onto : ∀ (i : Fin 8) (j : Fin 16), ∃ t : Fin cfg0.N, win0_4.index t = ![i.val, j.val] :=
  (by decide +kernel : ∀ (i : Fin 8) (j : Fin 16), ∃ t : Fin grid0.N, win0_4.index t = ![i.val, j.val])

/-! ## The loaded blocks as rows of the arrays -/

/-- Row `p` of the activation block at point `t` is row `1024·(row block) + p` of the flattened activations. -/
theorem read_act (c : Dev nD) (t : Fin cfg0.N) (p : Fin 1024) (k : Fin 4096) (r : Fin 8192)
    (hr : r.val = win0_4.index t (0 : Fin 2) * 1024 + p.val) :
    (iblk m c 0 t : Vec Ideal S1024x4096 .f32) (ix2 p k) = (V m c main_v0 : S8192x4096.Idx → EReal) (ix2 r k) := by
  obtain ⟨e0, e1, -⟩ := block_indices t
  unfold iblk
  rw [View.read_apply]
  show V m c main_v0 _ = V m c main_v0 _
  refine congrArg (V m c main_v0) (funext fun ax => Fin.ext ?_)
  match ax with
  | ⟨0, _⟩ => show win0_0.index t (0 : Fin 2) * 1024 + 1 * p.val = r.val; omega
  | ⟨1, _⟩ => show win0_0.index t (1 : Fin 2) * 4096 + 1 * k.val = k.val; omega

/-- Row `q` of the weight block at point `t` is row `256·(column block) + q` of the weight words. -/
theorem read_weight (c : Dev nD) (t : Fin cfg0.N) (q : Fin 256) (k : Fin 4096) (o : Fin 4096)
    (ho : o.val = win0_4.index t (1 : Fin 2) * 256 + q.val) :
    (iblk m c 1 t : Vec Ideal S256x4096 .i32) (ix2 q k) = (V m c main_arg1 : S4096x4096.Idx → BitVec 32) (ix2 o k) := by
  obtain ⟨-, -, e2, e3, -⟩ := block_indices t
  unfold iblk
  rw [View.read_apply]
  show V m c main_arg1 _ = V m c main_arg1 _
  refine congrArg (V m c main_arg1) (funext fun ax => Fin.ext ?_)
  match ax with
  | ⟨0, _⟩ => show win0_1.index t (0 : Fin 2) * 256 + 1 * q.val = o.val; omega
  | ⟨1, _⟩ => show win0_1.index t (1 : Fin 2) * 4096 + 1 * k.val = k.val; omega

/-- Entry `q` of the scale block at point `t` is entry `256·(column block) + q` of the scale. -/
theorem read_scale (c : Dev nD) (t : Fin cfg0.N) (q : Fin 256) (o : Fin 4096)
    (ho : o.val = win0_4.index t (1 : Fin 2) * 256 + q.val) :
    (iblk m c 2 t : Vec Ideal S256 .f32) (ix1 q) = (V m c main_arg2 : S4096.Idx → EReal) (ix1 o) := by
  obtain ⟨-, -, -, -, e4, -⟩ := block_indices t
  unfold iblk
  rw [View.read_apply]
  show V m c main_arg2 _ = V m c main_arg2 _
  refine congrArg (V m c main_arg2) (funext fun ax => Fin.ext ?_)
  match ax with
  | ⟨0, _⟩ => show win0_2.index t (0 : Fin 1) * 256 + 1 * q.val = o.val; omega

/-- Entry `q` of the bias block at point `t` is entry `256·(column block) + q` of the bias. -/
theorem read_bias (c : Dev nD) (t : Fin cfg0.N) (q : Fin 256) (o : Fin 4096)
    (ho : o.val = win0_4.index t (1 : Fin 2) * 256 + q.val) :
    (iblk m c 3 t : Vec Ideal S256 .f32) (ix1 q) = (V m c main_arg3 : S4096.Idx → EReal) (ix1 o) := by
  obtain ⟨-, -, -, -, -, e5, -⟩ := block_indices t
  unfold iblk
  rw [View.read_apply]
  show V m c main_arg3 _ = V m c main_arg3 _
  refine congrArg (V m c main_arg3) (funext fun ax => Fin.ext ?_)
  match ax with
  | ⟨0, _⟩ => show win0_3.index t (0 : Fin 1) * 256 + 1 * q.val = o.val; omega

/-! ## What a point writes back -/

/-- The linear layer over flat rows, of the arrays as the region finds them. -/
abbrev regionValue (c : Dev nD) : S8192x4096.Idx → EReal :=
  DenseSpec.rows (V m c main_v0) (V m c main_arg1) (V m c main_arg2) (V m c main_arg3)

/-- What point `t` writes back is block `t` of that function. -/
theorem flushed_eq (c : Dev nD) (t : Fin cfg0.N) :
    (dats m 0 c).flushed 4 t = ((cfg0.win 4).blk t).view.read (Elt Ideal) (regionValue m c) := by
  show (cfg0.win 4).cut (grid0.coords t) ((dats m 0 c).after 4 t) = _
  rw [after0_4]
  unfold out0_4
  rw [View.canon_unit_zero origin2]
  simp only [View.ld_unit_zero (S := S1024x4096) origin2, View.ld_unit_zero (S := S256x4096) origin2,
    View.ld_unit_zero (S := S256) origin1]
  obtain ⟨-, -, -, -, -, -, b0, b1⟩ := block_indices t
  funext y
  have hy0 : (y 0).val < 1024 := (y 0).isLt
  have hy1 : (y 1).val < 256 := (y 1).isLt
  have hpos : (cfg0.win 4).xinj (grid0.coords t) y = ix2 (⟨(y 0).val, hy0⟩ : Fin 1024) (⟨(y 1).val, hy1⟩ : Fin 256) :=
    funext fun ax => Fin.ext (by match ax with | ⟨0, _⟩ => rfl | ⟨1, _⟩ => rfl)
  have hemb : ((cfg0.win 4).blk t).view.emb y
      = ix2 (⟨win0_4.index t (0 : Fin 2) * 1024 + (y 0).val, by omega⟩ : Fin 8192)
          (⟨win0_4.index t (1 : Fin 2) * 256 + (y 1).val, by omega⟩ : Fin 4096) :=
    funext fun ax => Fin.ext (by
      match ax with
      | ⟨0, _⟩ => show win0_4.index t (0 : Fin 2) * 1024 + 1 * (y 0).val = win0_4.index t (0 : Fin 2) * 1024 + (y 0).val; omega
      | ⟨1, _⟩ => show win0_4.index t (1 : Fin 2) * 256 + 1 * (y 1).val = win0_4.index t (1 : Fin 2) * 256 + (y 1).val; omega)
  show k0_pay1 (F := Ideal) (iblk m c 0 t) (iblk m c 1 t) (iblk m c 2 t) (iblk m c 3 t) ((cfg0.win 4).xinj (grid0.coords t) y)
    = regionValue m c (((cfg0.win 4).blk t).view.emb y)
  rw [hpos, hemb]
  exact stored_eq_rows (V m c main_v0) (V m c main_arg1) (V m c main_arg2) (V m c main_arg3)
    (iblk m c 0 t) (iblk m c 1 t) (iblk m c 2 t) (iblk m c 3 t) _ _ _ _
    (fun k => read_act m c t _ k _ rfl) (fun k => read_weight m c t _ k _ rfl)
    (read_scale m c t _ _ rfl) (read_bias m c t _ _ rfl)

/-! ## The blocks cover the array -/

/-- An output position is in point `t`'s block iff each coordinate is in the block's range on its axis. -/
theorem mem_block (t : Fin cfg0.N) (i : S8192x4096.Idx) :
    i ∈ ((cfg0.win 4).blk t).view.set ↔ ∀ a : Fin 2, win0_4.index t a * S1024x256.size a ≤ (i a).val
      ∧ (i a).val < win0_4.index t a * S1024x256.size a + S1024x256.size a := by
  show i ∈ ((View.whole main_v1).slice (win0_4.rect t)).set ↔ _
  rw [View.set_slice_whole, Rect.mem_set_unit]
  exact Iff.rfl

/-- Every output position is in the block of the point at (row / 1024, column / 256). -/
theorem covered (i : S8192x4096.Idx) :
    ∃ t : Fin cfg0.N, (cfg0.win 4).flush t = true ∧ i ∈ ((cfg0.win 4).blk t).view.set := by
  have hi0 : (i 0).val < 8192 := (i 0).isLt
  have hi1 : (i 1).val < 4096 := (i 1).isLt
  obtain ⟨t, ht⟩ := block_onto ⟨(i 0).val / 1024, by omega⟩ ⟨(i 1).val / 256, by omega⟩
  have q0 : win0_4.index t (0 : Fin 2) = (i 0).val / 1024 := congrFun ht 0
  have q1 : win0_4.index t (1 : Fin 2) = (i 1).val / 256 := congrFun ht 1
  refine ⟨t, flush0_4 t, ?_⟩
  rw [mem_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 256 ≤ (i 1).val ∧ (i 1).val < win0_4.index t (1 : Fin 2) * 256 + 256; omega

/-- The output array after the region: the linear layer over flat rows. -/
theorem region_final (c : Dev nD) : (dats m 0 c).arrAt 4 cfg0.N = regionValue m c :=
  (dats m 0 c).arrAt_eq_of_cover 4 (regionValue m c) (fun t _ => flushed_eq m c t) (covered)

end Cert.KernelIdeal.Dense

end
-- ==== Proof.Reshape.lean ====
/-
  The two reshapes around the region cancel against the flat-row form.

  Flattening a 4 × 2048 × 4096 array to 8192 × 4096 keeps row-major positions, so flat row `2048·b + s` is the
  array's row `(b, s)`; reshaping an 8192 × 4096 array back to 4 × 2048 × 4096 reads position `(b, s, o)` from flat
  position `(2048·b + s, o)`. Hence the flat-row linear layer of the flattened activations, reshaped back, is the
  linear layer over batch and sequence position.
-/
import proofs.«143245_j9414568313144_1_alg».proof.Proof.Spec
import Idealize.ShloMosaic.Lib.Pipeline.Value

noncomputable section

namespace Cert.DenseSpec

open Idealize.ShloMosaic Idealize.ShloMosaic.ValueIdx

/-- The flattened array at flat row `2048·b + s` is the array at `(b, s)`. -/
theorem flatten_apply {α : Type} (x : (⟨3, ![4, 2048, 4096]⟩ : Shape).Idx → α)
    (h : (⟨3, ![4, 2048, 4096]⟩ : Shape).ShapeCasts ⟨2, ![8192, 4096]⟩)
    (b : Fin 4) (s : Fin 2048) (k : Fin 4096) (r : Fin 8192) (hr : r.val = b.val * 2048 + s.val) :
    shapeCast ⟨2, ![8192, 4096]⟩ x h (ix2 r k) = x (ix3 b s k) :=
  shapeCast_apply x h _ _ (by
    rw [Shape.rowMajor_val_two, Shape.rowMajor_val_three]
    show (b.val * 2048 + s.val) * 4096 + k.val = r.val * 4096 + k.val
    rw [hr])

/-- The array reshaped back at `(b, s, o)` is the flat array at row `2048·b + s`. -/
theorem unflatten_apply {α : Type} (y : (⟨2, ![8192, 4096]⟩ : Shape).Idx → α)
    (h : (⟨2, ![8192, 4096]⟩ : Shape).ShapeCasts ⟨3, ![4, 2048, 4096]⟩)
    (b : Fin 4) (s : Fin 2048) (o : Fin 4096) (r : Fin 8192) (hr : r.val = b.val * 2048 + s.val) :
    shapeCast ⟨3, ![4, 2048, 4096]⟩ y h (ix3 b s o) = y (ix2 r o) :=
  shapeCast_apply y h _ _ (by
    rw [Shape.rowMajor_val_two, Shape.rowMajor_val_three]
    show r.val * 4096 + o.val = (b.val * 2048 + s.val) * 4096 + o.val
    rw [hr])

/-- Flatten, take the linear layer over flat rows, reshape back: the linear layer over batch and sequence position. -/
theorem unflatten_rows_flatten (x : (⟨3, ![4, 2048, 4096]⟩ : Shape).Idx → EReal)
    (wq : (⟨2, ![4096, 4096]⟩ : Shape).Idx → BitVec 32) (scale bias : (⟨1, ![4096]⟩ : Shape).Idx → EReal)
    (h₁ : (⟨3, ![4, 2048, 4096]⟩ : Shape).ShapeCasts ⟨2, ![8192, 4096]⟩)
    (h₂ : (⟨2, ![8192, 4096]⟩ : Shape).ShapeCasts ⟨3, ![4, 2048, 4096]⟩) :
    shapeCast ⟨3, ![4, 2048, 4096]⟩ (rows (shapeCast ⟨2, ![8192, 4096]⟩ x h₁) wq scale bias) h₂ = out x wq scale bias := by
  funext i
  obtain ⟨b, s, o, rfl⟩ : ∃ (b : Fin 4) (s : Fin 2048) (o : Fin 4096), i = ix3 b s o := ⟨i 0, i 1, i 2, eq_ix3 i⟩
  have hlt : b.val * 2048 + s.val < 8192 := by have := b.isLt; have := s.isLt; omega
  rw [unflatten_apply _ h₂ b s o ⟨b.val * 2048 + s.val, hlt⟩ rfl]
  show (∑ k : Fin 4096, shapeCast ⟨2, ![8192, 4096]⟩ x h₁ (ix2 ⟨b.val * 2048 + s.val, hlt⟩ k) * weight wq scale o k) + bias (ix1 o)
    = (∑ k : Fin 4096, x (ix3 b s k) * weight wq scale o k) + bias (ix1 o)
  refine congrArg (· + bias (ix1 o)) (Finset.sum_congr rfl fun k _ => ?_)
  rw [flatten_apply x h₁ b s k ⟨b.val * 2048 + s.val, hlt⟩ rfl]

end Cert.DenseSpec

end
-- ==== Proof.KernelRun.lean ====
/-
  The kernel program's run, read: its result is the linear layer of the arguments.

  Before the region the program flattens the activations to 8192 × 4096; the region leaves, in its output array, the
  flat-row linear layer of the arrays it finds; after the region the program reshapes that array to 4 × 2048 × 4096.
  The weight words, scale and bias reach the region as launched. The two reshapes cancel against the flat-row form,
  so the result buffer holds the linear layer over batch and sequence position, and the arguments end unchanged.
-/
import proofs.«143245_j9414568313144_1_alg».proof.Proof.Blocks
import proofs.«143245_j9414568313144_1_alg».proof.Proof.Reshape
import Idealize.ShloMosaic.Lib.StableHlo.Run

noncomputable section

open Idealize.ShloMosaic Idealize.ShloMosaic.TcCoe Idealize.SL.Sem Idealize.ShloMosaic.StableHlo
open Idealize.ShloMosaic.Pipeline (Dat)

namespace Cert.KernelIdeal.Dense

open Cert.KernelIdeal Cert.KernelIdeal.Gen Idealize.ShloMosaic.ValueIdx

variable (m : (ℓ : Loc nD τ sig) → Buf (Elt Ideal) ℓ) (ρ : Dev nD → PrngReg)

/-- The region finds, as its activations, the launched activations flattened. -/
theorem entry_act (c : Dev nD) :
    (V m c main_v0 : S8192x4096.Idx → EReal)
      = shapeCast S8192x4096 (m ((c : Thread nD τ).loc main_arg0)) shapeCasts_S4x2048x4096_S8192x4096 := by
  show StableHlo.after hostOps0 (fun b => m (c, b)) (Proc.devRef .tc main_v0) = _
  after_results
  rfl

/-- The result buffer after the last reshape: the linear layer of the launched arguments. -/
theorem result_eq (c : Dev nD) :
    Pipeline.afterTail₀ cfgs (dats m) 0 (V0 m) [hostOps1] c main_v2
      = DenseSpec.out (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v2) = _
  after_results
  have e : Pipeline.withArrays spec0 c (V0 m c) (fun w => (dats m 0 c).arrAt w cfg0.N) (Proc.devRef .tc main_v1)
      = regionValue m c :=
    (Pipeline.withArrays_arr spec0 launch0.win.arr_inj c _ _ 4).trans (region_final m c)
  show shapeCast S4x2048x4096 (Pipeline.withArrays spec0 c (V0 m c) (fun w => (dats m 0 c).arrAt w cfg0.N) (Proc.devRef .tc main_v1))
      shapeCasts_S8192x4096_S4x2048x4096 = _
  rw [e]
  unfold regionValue
  rw [entry_act m c, V_main_arg1 m c, V_main_arg2 m c, V_main_arg3 m c]
  exact DenseSpec.unflatten_rows_flatten _ _ _ _ _ _

/-- Every weakly fair execution of the kernel program terminates with the result buffer at the linear layer of the
    arguments and the arguments unchanged. -/
theorem run : θ_run defs (onTc (τ := τ) (main (F := Ideal))) ⟨m, fun _ => 0, ρ⟩ fun r => ∀ c : Dev nD,
      r.2.mem ((c : Thread nD τ).loc main_v2)
        = DenseSpec.out (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v2 (Pipeline.mem_restRefs_of main_v2 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Dense

end
-- ==== Proof.RefValue.lean ====
/-
  The reference program computes the linear layer over batch and sequence position.

  Read one operation at a time, the reference converts the weight words to reals, broadcasts the scale along each
  weight row and multiplies, contracts the activations' last axis against the weight's last axis, and adds the bias
  broadcast over batch and sequence position. At `(b, s, o)` that is
  `(∑ k, x b s k · (float (wq o k) · scale o)) + bias o`: the broadcasts only repeat an entry, so each index function
  the operations compose collapses to the plain coordinates.
-/
import proofs.«143245_j9414568313144_1_alg».proof.Proof.Gen.ReferenceIdeal.Read
import proofs.«143245_j9414568313144_1_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The reference's last stage is the linear layer. -/
theorem reference_eq (x : (⟨S4x2048x4096, .f32⟩ : BufTy).Contents (Elt Ideal)) (wq : (⟨S4096x4096, .i32⟩ : BufTy).Contents (Elt Ideal))
    (scale bias : (⟨S4096, .f32⟩ : BufTy).Contents (Elt Ideal)) :
    val_main_v7 (F := Ideal) x wq scale bias = DenseSpec.out x wq scale bias := by
  funext i
  obtain ⟨b, s, o, rfl⟩ : ∃ (b : Fin 4) (s : Fin 2048) (o : Fin 4096), i = ix3 b s o := ⟨i 0, i 1, i 2, eq_ix3 i⟩
  have el : ∀ k : Fin 4096, lidx_main_v4 (ix3 b s o) k = ix3 b s k := fun k =>
    funext fun a => Fin.ext (by match a with | ⟨0, _⟩ => rfl | ⟨1, _⟩ => rfl | ⟨2, _⟩ => rfl)
  have er : ∀ k : Fin 4096, ridx_main_v4 (ix3 b s o) k = ix2 o k := fun k =>
    funext fun a => Fin.ext (by match a with | ⟨0, _⟩ => rfl | ⟨1, _⟩ => rfl)
  have es : ∀ k : Fin 4096, idx_main_v1 (idx_main_v2 (ix2 o k)) = ix1 o := fun k =>
    funext fun a => Fin.ext (by match a with | ⟨0, _⟩ => rfl)
  have eb : idx_main_v5 (idx_main_v6 (ix3 b s o)) = ix1 o :=
    funext fun a => Fin.ext (by match a with | ⟨0, _⟩ => rfl)
  rw [val_main_v7_apply, val_main_v4_apply, val_main_v6_apply, val_main_v5_apply, eb]
  show (∑ k : Fin 4096, x (lidx_main_v4 (ix3 b s o) k) * val_main_v3 (F := Ideal) wq scale (ridx_main_v4 (ix3 b s o) k)) + bias (ix1 o)
    = (∑ k : Fin 4096, x (ix3 b s k) * DenseSpec.weight wq scale o k) + bias (ix1 o)
  refine congrArg (· + bias (ix1 o)) (Finset.sum_congr rfl fun k _ => ?_)
  rw [el k, er k, val_main_v3_apply, val_main_v0_apply, val_main_v2_apply, val_main_v1_apply, es k]
  rfl

end Cert.ReferenceIdeal.RefValue

end
-- ==== Proof.lean ====
/-
  A quantized linear layer: the kernel against its reference, on the extended reals.

  Inputs: activations `x` (4 × 2048 × 4096), integer weight words `wq` (4096 × 4096), and per output feature a scale
  and a bias. Both programs dequantize the weight, `w o k = float (wq o k) · scale o`, and compute
      out b s o = (∑ k, x b s k · w o k) + bias o.
  The reference does it with one contraction over the whole arrays. The kernel flattens `x` to 8192 rows, tiles the
  8192 × 4096 output into 8 × 16 blocks of 1024 × 256, and for each block multiplies 1024 activation rows by 256
  dequantized weight rows — contracting all 4096 input features at once, into a zero accumulator, after narrowing
  both operands to a 16-bit format — adds the bias, and finally reshapes the output back.

  On the extended reals the narrowing is the identity and the zero accumulator adds nothing, so each block entry is
  the very sum the reference takes, over the same 4096 terms in the same order: no law beyond reading the indices
  is needed, and the finiteness of the inputs is never used. The idealization rewrote nothing, so that conjunct is
  trivial; the three frames are the generated ones (the reference's from its run, with the result dropped).
-/
import proofs.«143245_j9414568313144_1_alg».proof.Defs
import proofs.«143245_j9414568313144_1_alg».proof.Proof.Gen.Kernel
import proofs.«143245_j9414568313144_1_alg».proof.Proof.Gen.Kernel.Skeleton
import proofs.«143245_j9414568313144_1_alg».proof.Proof.Gen.Kernel.Launch
import proofs.«143245_j9414568313144_1_alg».proof.Proof.Gen.Kernel.Points
import proofs.«143245_j9414568313144_1_alg».proof.Proof.Gen.Kernel.Frame
import proofs.«143245_j9414568313144_1_alg».proof.Proof.Gen.KernelIdeal
import proofs.«143245_j9414568313144_1_alg».proof.Proof.Gen.KernelIdeal.Skeleton
import proofs.«143245_j9414568313144_1_alg».proof.Proof.Gen.KernelIdeal.Launch
import proofs.«143245_j9414568313144_1_alg».proof.Proof.Gen.KernelIdeal.Points
import proofs.«143245_j9414568313144_1_alg».proof.Proof.Gen.KernelIdeal.Frame
import proofs.«143245_j9414568313144_1_alg».proof.Proof.Gen.ReferenceIdeal
import proofs.«143245_j9414568313144_1_alg».proof.Proof.Gen.ReferenceIdeal.Run
import proofs.«143245_j9414568313144_1_alg».proof.Proof.Gen.ReferenceIdeal.Read
import proofs.«143245_j9414568313144_1_alg».proof.Proof.Gen.Pre_finite_inputs
import proofs.«143245_j9414568313144_1_alg».proof.Proof.KernelRun
import proofs.«143245_j9414568313144_1_alg».proof.Proof.RefValue
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does it read on the extended reals. -/
theorem frame_kernel_ideal : Cert.frame_KernelIdeal := fun m ρ _ => Cert.KernelIdeal.Gen.frame m ρ

/-- The reference runs and keeps its arguments: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the arguments both programs end with the linear layer of those arguments in their
    result buffers: the kernel by its run read through the two reshapes and the block tiling, the reference by its
    run read one operation at a time. -/
theorem algebraic : Cert.algebraic_KernelIdeal_ReferenceIdeal := by
  intro m ρ m' ρ' _ hagree
  refine ⟨_, Cert.KernelIdeal.Dense.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.reference_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
